-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024x256 : Shape := ⟨2, ![1024, 256]⟩
abbrev S512x256 : Shape := ⟨2, ![512, 256]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  main_v18

def fn {F : FTy → Type} [FloatOps F] (main_arg0 : FVec F S4x8192x1024 .f32) (main_arg1 : FVec F S1024x256 .f32) (main_arg2 : FVec F S512x256 .f32) (main_arg3 : FVec F S512x256 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_v13 main_v16
-- ==== Kernel.lean ====
abbrev S4x8192x1024 : Shape := ⟨3, ![4, 8192, 1024]⟩
abbrev S1024x256 : Shape := ⟨2, ![1024, 256]⟩
abbrev S512x256 : Shape := ⟨2, ![512, 256]⟩
abbrev S256x512 : Shape := ⟨2, ![256, 512]⟩
abbrev S4x8192x256 : Shape := ⟨3, ![4, 8192, 256]⟩
abbrev S1x2048x1024 : Shape := ⟨3, ![1, 2048, 1024]⟩
abbrev S1x2048x256 : Shape := ⟨3, ![1, 2048, 256]⟩
abbrev S2048x1024 : Shape := ⟨2, ![2048, 1024]⟩
abbrev S2048x256 : Shape := ⟨2, ![2048, 256]⟩
abbrev S2048x512 : Shape := ⟨2, ![2048, 512]⟩
abbrev S2048 : Shape := ⟨1, ![2048]⟩
abbrev S2048x1 : Shape := ⟨2, ![2048, 1]⟩

abbrev nBuf : Space → Nat
  | .hbm => 8
  | .vmem => 7
  | .smem => 0
  | _ => 0

abbrev bufTy : (tb : Table) → Fin (tcTables nBuf tb) → BufTy
  | .hbm, ⟨0, _⟩ => ⟨S4x8192x1024, .f32⟩
  | .hbm, ⟨1, _⟩ => ⟨S1024x256, .f32⟩
  | .hbm, ⟨2, _⟩ => ⟨S512x256, .f32⟩
  | .hbm, ⟨3, _⟩ => ⟨S512x256, .f32⟩
  | .hbm, ⟨4, _⟩ => ⟨S1024x256, .bf16⟩
  | .hbm, ⟨5, _⟩ => ⟨S256x512, .f32⟩
  | .hbm, ⟨6, _⟩ => ⟨S512x256, .bf16⟩
  | .hbm, ⟨7, _⟩ => ⟨S4x8192x256, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x256, .bf16⟩
  | .local _ .vmem, ⟨3, _⟩ => ⟨S256x512, .f32⟩
  | .local _ .vmem, ⟨4, _⟩ => ⟨S512x256, .bf16⟩
  | .local _ .vmem, ⟨5, _⟩ => ⟨S1x2048x256, .f32⟩
  | .local _ .vmem, ⟨6, _⟩ => ⟨S1x2048x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  transposes_S512x256_S256x512_1_0 : S512x256.Transposes [1, 0] S256x512
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S2048x512_S2048 : S2048x512.Reduces [1] S2048
  shapeCasts_S2048_S2048x1 : S2048.ShapeCasts S2048x1
  broadcasts_S2048x1_S2048x512 : S2048x1.Broadcasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  dot_S2048x1024_S1024x256_S2048x256_1_0_0_1_n_n_wf : DotDims.WF S2048x1024 S1024x256 S2048x256 [1] [0] [0] [1] [] []
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x8192x1024.size a
  hwx0_0 : ∀ i : grid0.Coords, EltTy.bits .f32 = 32 ∨ (Rect.block (s := S4x8192x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x256.size a ≤ S4x8192x256.size a
  hwx0_4 : ∀ i : grid0.Coords, EltTy.bits .f32 = 32 ∨ (Rect.block (s := S4x8192x256) S1x2048x256.size (cc0_transform_4 i) (hinb0_4 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024x256 : Shape := ⟨2, ![1024, 256]⟩
abbrev S512x256 : Shape := ⟨2, ![512, 256]⟩
abbrev S4x8192x256 : Shape := ⟨3, ![4, 8192, 256]⟩
abbrev S4x8192x512 : Shape := ⟨3, ![4, 8192, 512]⟩
abbrev S_ : Shape := ⟨0, ![]⟩
abbrev S4x8192 : Shape := ⟨2, ![4, 8192]⟩
abbrev S4x8192x1 : Shape := ⟨3, ![4, 8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x256, .f32⟩
  | .hbm, ⟨2, _⟩ => ⟨S512x256, .f32⟩
  | .hbm, ⟨3, _⟩ => ⟨S512x256, .f32⟩
  | .hbm, ⟨4, _⟩ => ⟨S4x8192x256, .f32⟩
  | .hbm, ⟨5, _⟩ => ⟨S4x8192x512, .f32⟩
  | .hbm, ⟨6, _⟩ => ⟨S_, .f32⟩
  | .hbm, ⟨7, _⟩ => ⟨S4x8192, .f32⟩
  | .hbm, ⟨8, _⟩ => ⟨S_, .f32⟩
  | .hbm, ⟨9, _⟩ => ⟨S4x8192, .f32⟩
  | .hbm, ⟨10, _⟩ => ⟨S4x8192, .f32⟩
  | .hbm, ⟨11, _⟩ => ⟨S4x8192x1, .f32⟩
  | .hbm, ⟨12, _⟩ => ⟨S4x8192x512, .f32⟩
  | .hbm, ⟨13, _⟩ => ⟨S4x8192x512, .f32⟩
  | .hbm, ⟨14, _⟩ => ⟨S4x8192x512, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S4x8192x512, .f32⟩
  | .hbm, ⟨19, _⟩ => ⟨S4x8192x512, .f32⟩
  | .hbm, ⟨20, _⟩ => ⟨S4x8192x256, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  reducesTo_S4x8192x512_S4x8192_d2 : S4x8192x512.ReducesTo [2] S4x8192
  h_S_ : 0 < S_.numel
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S4x8192x1_S4x8192x512_0_1_2 : S4x8192x1.BroadcastsInDim S4x8192x512 (![0, 1, 2] : Fin 3 → Fin S4x8192x512.rank)
  dot_S4x8192x1024_S1024x256_S4x8192x256_2_0_01_1_n_n_wf : DotDims.WF S4x8192x1024 S1024x256 S4x8192x256 [2] [0] [0, 1] [1] [] []
  dot_S4x8192x256_S512x256_S4x8192x512_2_1_01_0_n_n_wf : DotDims.WF S4x8192x256 S512x256 S4x8192x512 [2] [1] [0, 1] [0] [] []
  dot_S4x8192x512_S512x256_S4x8192x256_2_0_01_1_n_n_wf : DotDims.WF S4x8192x512 S512x256 S4x8192x256 [2] [0] [0, 1] [1] [] []

variable [Facts₀]

def dot_S4x8192x1024_S1024x256_S4x8192x256_2_0_01_1_n_n : DotDims S4x8192x1024 S1024x256 S4x8192x256 where
  lhsContracting := [2]
  rhsContracting := [0]
  lhsNonContracting := [0, 1]
  rhsNonContracting := [1]
  lhsBatch := []
  rhsBatch := []
  wf := dot_S4x8192x1024_S1024x256_S4x8192x256_2_0_01_1_n_n_wf
def dot_S4x8192x256_S512x256_S4x8192x512_2_1_01_0_n_n : DotDims S4x8192x256 S512x256 S4x8192x512 where
  lhsContracting := [2]
  rhsContracting := [1]
  lhsNonContracting := [0, 1]
  rhsNonContracting := [0]
  lhsBatch := []
  rhsBatch := []
  wf := dot_S4x8192x256_S512x256_S4x8192x512_2_1_01_0_n_n_wf
def dot_S4x8192x512_S512x256_S4x8192x256_2_0_01_1_n_n : DotDims S4x8192x512 S512x256 S4x8192x256 where
  lhsContracting := [2]
  rhsContracting := [0]
  lhsNonContracting := [0, 1]
  rhsNonContracting := [1]
  lhsBatch := []
  rhsBatch := []
  wf := dot_S4x8192x512_S512x256_S4x8192x256_2_0_01_1_n_n_wf

class Facts : Prop extends Facts₀ where

variable [Facts]
-- ==== Proof.Retrieval.lean ====
/-
  Symbol retrieval, row by row, on the extended reals.

  One row `x` of 1024 inputs is projected to 256 keys, `key k = ∑ d, x d · W (d, k)`; the keys are scored against each of
  512 binding vectors, `score j = ∑ k, key k · Bt k j`; the scores are turned into softmax weights

      weight j = exp (score j − M) / ∑ j', exp (score j' − M),      M = the maximum of the row's scores,

  and the row's result is the weighted sum of the symbol table's rows, `out c = ∑ j, weight j · Sym (j, c)`.
  The maximum is taken the way both programs take it: the fold of `max` over the 512 scores, started from the float word
  of −∞. Nothing here evaluates that word except `lowest_eq_bot`, which is needed once: a second `max` against −∞ changes
  nothing (`max_lowest`).

  `retrieved` is the whole result array: entry `(b, r, c)` is the row function of row `(b, r)` of the input array, with the
  binding table read transposed (`Bt k j = B (j, k)`).
-/
import Idealize.ShloMosaic.PureOps.Ideal
import Idealize.ShloMosaic.Lib.ValueIdx

noncomputable section

namespace Cert.Retrieval

open Idealize.ShloMosaic Idealize.ShloMosaic.ValueIdx

/-- The float word `0xFF800000` as an extended real: what a row maximum starts from. -/
abbrev lowest : EReal := Ideal.ofBits .f32 0xFF800000#32

/-- That word denotes −∞, the least extended real. -/
theorem lowest_eq_bot : lowest = ⊥ := by simp [lowest, Ideal.ofBits, Ideal.ieee]

/-- So a maximum against it is the other argument. -/
theorem max_lowest (x : EReal) : max lowest x = x := by rw [lowest_eq_bot]; exact max_eq_right bot_le

/-- The maximum of a row of 512 scores: the fold of `max` from −∞. -/
def rowMax (s : Fin 512 → EReal) : EReal := (Finset.univ : Finset (Fin 512)).fold max lowest s

/-- A score shifted by the row's maximum and exponentiated. -/
def expShift (s : Fin 512 → EReal) (j : Fin 512) : EReal := Ideal.exp (s j - rowMax s)

/-- The softmax weight of score `j` in its row. -/
def weight (s : Fin 512 → EReal) (j : Fin 512) : EReal := Ideal.div (expShift s j) (∑ j' : Fin 512, expShift s j')

/-- Key `k` of a row: the row times column `k` of the projection. -/
def keyRow (x : Fin 1024 → EReal) (W : (⟨2, ![1024, 256]⟩ : Shape).Idx → EReal) (k : Fin 256) : EReal :=
  ∑ d : Fin 1024, x d * W (ix2 d k)

/-- Score `j` of a row: its keys times binding vector `j` (column `j` of the transposed table). -/
def scoreRow (x : Fin 1024 → EReal) (W : (⟨2, ![1024, 256]⟩ : Shape).Idx → EReal) (Bt : Fin 256 → Fin 512 → EReal)
    (j : Fin 512) : EReal :=
  ∑ k : Fin 256, keyRow x W k * Bt k j

/-- Entry `c` of a row's result: the softmax-weighted sum of the symbols' entries `c`. -/
def retrievedRow (x : Fin 1024 → EReal) (W : (⟨2, ![1024, 256]⟩ : Shape).Idx → EReal) (Bt : Fin 256 → Fin 512 → EReal)
    (Sym : (⟨2, ![512, 256]⟩ : Shape).Idx → EReal) (c : Fin 256) : EReal :=
  ∑ j : Fin 512, weight (scoreRow x W Bt) j * Sym (ix2 j c)

/-- The whole result: entry `(b, r, c)` is entry `c` of the result of row `(b, r)`. -/
def retrieved (X : (⟨3, ![4, 8192, 1024]⟩ : Shape).Idx → EReal) (W : (⟨2, ![1024, 256]⟩ : Shape).Idx → EReal)
    (B Sym : (⟨2, ![512, 256]⟩ : Shape).Idx → EReal) : (⟨3, ![4, 8192, 256]⟩ : Shape).Idx → EReal :=
  fun i => retrievedRow (fun d => X (ix3 (i 0) (i 1) d)) W (fun k j => B (ix2 j k)) Sym (i 2)

/-- The result at an index written with coordinates. -/
theorem retrieved_ix3 (X : (⟨3, ![4, 8192, 1024]⟩ : Shape).Idx → EReal) (W : (⟨2, ![1024, 256]⟩ : Shape).Idx → EReal)
    (B Sym : (⟨2, ![512, 256]⟩ : Shape).Idx → EReal) (b : Fin 4) (r : Fin 8192) (c : Fin 256) :
    retrieved X W B Sym (ix3 b r c) = retrievedRow (fun d => X (ix3 b r d)) W (fun k j => B (ix2 j k)) Sym c := rfl

end Cert.Retrieval

end
-- ==== Proof.RefRows.lean ====
/-
  The reference, stage by stage, is the row mathematics of `Cert.Retrieval`.

  Each stage of the reference is read at an index written with coordinates: the projection at `(b, r, k)` is key `k` of row
  `(b, r)`; the second product, which contracts the keys with the binding table's SECOND axis, at `(b, r, j)` is score `j` —
  the table is read at `(j, k)`, that is, transposed; the reduction with a maximum body over the last axis, started from −∞, is
  the row's maximum, and the further maximum against a splat of −∞ changes nothing; subtracting, exponentiating, summing
  over the last axis from zero and dividing give the softmax weight; the last product is the weighted sum of symbols.
-/
import proofs.«153779_j69956427317858_2_alg».proof.Proof.Gen.ReferenceIdeal.Read
import proofs.«153779_j69956427317858_2_alg».proof.Proof.Retrieval
import Idealize.ShloMosaic.PureOps.Reduce
import Idealize.ShloMosaic.PureOps.Ideal.Laws
import Idealize.ShloMosaic.Lib.ValueIdx

noncomputable section

namespace Cert.ReferenceIdeal.RefRows

open Cert.ReferenceIdeal Cert.ReferenceIdeal.Read Cert.Retrieval
open Idealize.ShloMosaic Idealize.ShloMosaic.ValueIdx

variable (X : (⟨S4x8192x1024, .f32⟩ : BufTy).Contents (Elt Ideal)) (W : (⟨S1024x256, .f32⟩ : BufTy).Contents (Elt Ideal))
  (B Sym : (⟨S512x256, .f32⟩ : BufTy).Contents (Elt Ideal))

/-! ## The stages' operand indices, at coordinates -/

theorem lidx0 (b : Fin 4) (r : Fin 8192) (c : Fin 256) (d : Fin 1024) : lidx_main_v0 (ix3 b r c) d = ix3 b r d :=
  funext fun a => Fin.ext (by match a with | ⟨0, _⟩ => rfl | ⟨1, _⟩ => rfl | ⟨2, _⟩ => rfl)
theorem ridx0 (b : Fin 4) (r : Fin 8192) (c : Fin 256) (d : Fin 1024) : ridx_main_v0 (ix3 b r c) d = ix2 d c :=
  funext fun a => Fin.ext (by match a with | ⟨0, _⟩ => rfl | ⟨1, _⟩ => rfl)
theorem lidx1 (b : Fin 4) (r : Fin 8192) (j : Fin 512) (k : Fin 256) : lidx_main_v1 (ix3 b r j) k = ix3 b r k :=
  funext fun a => Fin.ext (by match a with | ⟨0, _⟩ => rfl | ⟨1, _⟩ => rfl | ⟨2, _⟩ => rfl)
theorem ridx1 (b : Fin 4) (r : Fin 8192) (j : Fin 512) (k : Fin 256) : ridx_main_v1 (ix3 b r j) k = ix2 j k :=
  funext fun a => Fin.ext (by match a with | ⟨0, _⟩ => rfl | ⟨1, _⟩ => rfl)
theorem idx56 (b : Fin 4) (r : Fin 8192) (j : Fin 512) : idx_main_v5 (idx_main_v6 (ix3 b r j)) = ix2 b r :=
  funext fun a => Fin.ext (by match a with | ⟨0, _⟩ => rfl | ⟨1, _⟩ => rfl)
theorem idx9 (b : Fin 4) (r : Fin 8192) (j : Fin 512) : idx_main_v9 (ix2 b r) j = ix3 b r j :=
  funext fun a => Fin.ext (by match a with | ⟨0, _⟩ => rfl | ⟨1, _⟩ => rfl | ⟨2, _⟩ => rfl)
theorem idx1011 (b : Fin 4) (r : Fin 8192) (j : Fin 512) : idx_main_v10 (idx_main_v11 (ix3 b r j)) = ix2 b r :=
  funext fun a => Fin.ext (by match a with | ⟨0, _⟩ => rfl | ⟨1, _⟩ => rfl)
theorem lidx13 (b : Fin 4) (r : Fin 8192) (c : Fin 256) (j : Fin 512) : lidx_main_v13 (ix3 b r c) j = ix3 b r j :=
  funext fun a => Fin.ext (by match a with | ⟨0, _⟩ => rfl | ⟨1, _⟩ => rfl | ⟨2, _⟩ => rfl)
theorem ridx13 (b : Fin 4) (r : Fin 8192) (c : Fin 256) (j : Fin 512) : ridx_main_v13 (ix3 b r c) j = ix2 j c :=
  funext fun a => Fin.ext (by match a with | ⟨0, _⟩ => rfl | ⟨1, _⟩ => rfl)

/-- Row `(b, r)` of the score array with score `j` put back on the reduced axis is the index `(b, r, j)`. -/
theorem lift_row (h : S4x8192x512.Reduces [2] S4x8192) (b : Fin 4) (r : Fin 8192) (j : Fin 512) :
    h.lift (ix2 b r) j = ix3 b r j := by
  funext a; apply Fin.ext
  match a with
  | ⟨0, _⟩ => rfl
  | ⟨1, _⟩ => rfl
  | ⟨2, _⟩ => rfl

/-! ## The stages -/

/-- The projection at `(b, r, k)`: key `k` of row `(b, r)`. -/
theorem keys_at (b : Fin 4) (r : Fin 8192) (k : Fin 256) :
    val_main_v0 (F := Ideal) X W (ix3 b r k) = keyRow (fun d => X (ix3 b r d)) W k := by
  rw [val_main_v0_apply]
  simp only [lidx0, ridx0]
  rfl

/-- The product with the binding table at `(b, r, j)`: score `j` of the row, the table read at `(j, k)`. -/
theorem scores_at (b : Fin 4) (r : Fin 8192) (j : Fin 512) :
    val_main_v1 (F := Ideal) X W B (ix3 b r j) = scoreRow (fun d => X (ix3 b r d)) W (fun k j => B (ix2 j k)) j := by
  rw [val_main_v1_apply]
  simp only [lidx1, ridx1, keys_at]
  rfl

/-- The reduction with a maximum body over the last axis, from −∞: the row's maximum. -/
theorem max_at (b : Fin 4) (r : Fin 8192) :
    val_main_v2 (F := Ideal) X W B (ix2 b r) = rowMax (scoreRow (fun d => X (ix3 b r d)) W (fun k j => B (ix2 j k))) := by
  have hred : S4x8192x512.Reduces [2] S4x8192 := by decide
  have hf : (val_main_v1 (F := Ideal) X W B ∘ hred.lift (ix2 b r))
      = scoreRow (fun d => X (ix3 b r d)) W (fun k j => B (ix2 j k)) := funext fun (j : Fin 512) =>
    (congrArg (val_main_v1 (F := Ideal) X W B) (lift_row hred b r j)).trans (scores_at X W B b r j)
  unfold val_main_v2
  rw [Host.reduce_eq_fold_single FloatOps.maximumf _ _ _ hred _, hf]
  rfl

/-- The maximum of that with a splat of −∞ is the row's maximum still. -/
theorem max'_at (b : Fin 4) (r : Fin 8192) :
    val_main_v4 (F := Ideal) X W B (ix2 b r) = rowMax (scoreRow (fun d => X (ix3 b r d)) W (fun k j => B (ix2 j k))) := by
  rw [val_main_v4_apply, val_main_v3_apply, max_at]
  exact max_lowest _

/-- Shifted by the row's maximum and exponentiated. -/
theorem exp_at (b : Fin 4) (r : Fin 8192) (j : Fin 512) :
    val_main_v8 (F := Ideal) X W B (ix3 b r j)
      = expShift (scoreRow (fun d => X (ix3 b r d)) W (fun k j => B (ix2 j k))) j := by
  rw [val_main_v8_apply, val_main_v7_apply, val_main_v6_apply, val_main_v5_apply, idx56, max'_at, scores_at]
  rfl

/-- The sum of those over the last axis, from zero. -/
theorem sum_at (b : Fin 4) (r : Fin 8192) :
    val_main_v9 (F := Ideal) X W B (ix2 b r)
      = ∑ j : Fin 512, expShift (scoreRow (fun d => X (ix3 b r d)) W (fun k j => B (ix2 j k))) j := by
  rw [val_main_v9_apply]
  simp only [idx9, exp_at]
  show Ideal.ofBits .f32 0x00000000#32 + _ = _
  rw [Ideal.ofBits_zero_f32, zero_add]

/-- The quotient: the softmax weight. -/
theorem weight_at (b : Fin 4) (r : Fin 8192) (j : Fin 512) :
    val_main_v12 (F := Ideal) X W B (ix3 b r j)
      = weight (scoreRow (fun d => X (ix3 b r d)) W (fun k j => B (ix2 j k))) j := by
  rw [val_main_v12_apply, val_main_v11_apply, val_main_v10_apply, idx1011, sum_at, exp_at]
  rfl

/-- THE REFERENCE'S RESULT is `retrieved` of its arguments. -/
theorem result_eq : val_main_v13 (F := Ideal) X W B Sym = retrieved X W B Sym := by
  funext i
  obtain ⟨b, r, c, rfl⟩ : ∃ (b : Fin 4) (r : Fin 8192) (c : Fin 256), i = ix3 b r c := ⟨i 0, i 1, i 2, eq_ix3 i⟩
  rw [val_main_v13_apply, retrieved_ix3]
  simp only [lidx13, ridx13, weight_at]
  rfl

end Cert.ReferenceIdeal.RefRows

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.BodyRows.lean ====
/-
  The kernel body, stage by stage, is the row mathematics of `Cert.Retrieval`.

  The body works on one block of 2048 rows. Its value is a chain of vectors: the keys (the block times the projection), the
  scores (the keys times the transposed binding table), the exponentials of the scores shifted by their row's maximum, the
  weights (the exponentials over their row's sum), and the weights times the symbol table, re-laid with a leading unit axis.
  Changes of float format are the identity on the extended reals. Each stage is read at coordinates `(p, ·)` of the block:
  row `p` of the block's result is the row function of row `p` of the block.
-/
import proofs.«153779_j69956427317858_2_alg».proof.Proof.Gen.KernelIdeal.Skeleton
import proofs.«153779_j69956427317858_2_alg».proof.Proof.Retrieval
import proofs.«153779_j69956427317858_2_alg».proof.Proof.LibPlainDot
import proofs.«153779_j69956427317858_2_alg».proof.Proof.LibColumns
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.BodyRows

open Cert.KernelIdeal Cert.KernelIdeal.Gen Cert.Retrieval Cert.Lib.PlainDot Cert.Lib.Columns
open Idealize.ShloMosaic Idealize.ShloMosaic.ValueIdx

/-! ## The three products, at coordinates -/

/-- The block times the projection, at `(p, k)`. -/
theorem keys_dot (l : FVec Ideal S2048x1024 .bf16) (r : FVec Ideal S1024x256 .bf16) (p : Fin 2048) (k : Fin 256) :
    matmul dot_S2048x1024_S1024x256_S2048x256_1_0_0_1_n_n none l r (constant (F := Ideal) S2048x256 .f32 0x00000000#32) (ix2 p k)
      = ∑ d : Fin 1024, l (ix2 p d) * r (ix2 d k) :=
  matmul_zero_ix2 dot_S2048x1024_S1024x256_S2048x256_1_0_0_1_n_n rfl rfl
    (fun i q => by
      unfold DotDims.lhsIdx
      rw [dif_neg (show ¬(0 : Fin S2048x1024.rank) ∈ dot_S2048x1024_S1024x256_S2048x256_1_0_0_1_n_n.lhsBatch by decide),
        dif_pos (show (0 : Fin S2048x1024.rank) ∈ dot_S2048x1024_S1024x256_S2048x256_1_0_0_1_n_n.lhsNonContracting by decide)]
      rfl)
    (fun i q => dot_S2048x1024_S1024x256_S2048x256_1_0_0_1_n_n.lhsIdx_val_of_single rfl i q)
    (fun i q => dot_S2048x1024_S1024x256_S2048x256_1_0_0_1_n_n.rhsIdx_val_of_single rfl i q)
    (fun i q => by
      unfold DotDims.rhsIdx
      rw [dif_neg (show ¬(1 : Fin S1024x256.rank) ∈ dot_S2048x1024_S1024x256_S2048x256_1_0_0_1_n_n.rhsBatch by decide),
        dif_pos (show (1 : Fin S1024x256.rank) ∈ dot_S2048x1024_S1024x256_S2048x256_1_0_0_1_n_n.rhsNonContracting by decide)]
      rfl)
    none l r p k

/-- The keys times the transposed binding table, at `(p, j)`. -/
theorem scores_dot (prec : Option ContractPrecision) (l : FVec Ideal S2048x256 .f32) (r : FVec Ideal S256x512 .f32) (p : Fin 2048) (j : Fin 512) :
    matmul dot_S2048x256_S256x512_S2048x512_1_0_0_1_n_n prec l r (constant (F := Ideal) S2048x512 .f32 0x00000000#32) (ix2 p j)
      = ∑ k : Fin 256, l (ix2 p k) * r (ix2 k j) :=
  matmul_zero_ix2 dot_S2048x256_S256x512_S2048x512_1_0_0_1_n_n rfl rfl
    (fun i q => by
      unfold DotDims.lhsIdx
      rw [dif_neg (show ¬(0 : Fin S2048x256.rank) ∈ dot_S2048x256_S256x512_S2048x512_1_0_0_1_n_n.lhsBatch by decide),
        dif_pos (show (0 : Fin S2048x256.rank) ∈ dot_S2048x256_S256x512_S2048x512_1_0_0_1_n_n.lhsNonContracting by decide)]
      rfl)
    (fun i q => dot_S2048x256_S256x512_S2048x512_1_0_0_1_n_n.lhsIdx_val_of_single rfl i q)
    (fun i q => dot_S2048x256_S256x512_S2048x512_1_0_0_1_n_n.rhsIdx_val_of_single rfl i q)
    (fun i q => by
      unfold DotDims.rhsIdx
      rw [dif_neg (show ¬(1 : Fin S256x512.rank) ∈ dot_S2048x256_S256x512_S2048x512_1_0_0_1_n_n.rhsBatch by decide),
        dif_pos (show (1 : Fin S256x512.rank) ∈ dot_S2048x256_S256x512_S2048x512_1_0_0_1_n_n.rhsNonContracting by decide)]
      rfl)
    prec l r p j

/-- The weights times the symbol table, at `(p, c)`. -/
theorem symbols_dot (l : FVec Ideal S2048x512 .bf16) (r : FVec Ideal S512x256 .bf16) (p : Fin 2048) (c : Fin 256) :
    matmul dot_S2048x512_S512x256_S2048x256_1_0_0_1_n_n none l r (constant (F := Ideal) S2048x256 .f32 0x00000000#32) (ix2 p c)
      = ∑ j : Fin 512, l (ix2 p j) * r (ix2 j c) :=
  matmul_zero_ix2 dot_S2048x512_S512x256_S2048x256_1_0_0_1_n_n rfl rfl
    (fun i q => by
      unfold DotDims.lhsIdx
      rw [dif_neg (show ¬(0 : Fin S2048x512.rank) ∈ dot_S2048x512_S512x256_S2048x256_1_0_0_1_n_n.lhsBatch by decide),
        dif_pos (show (0 : Fin S2048x512.rank) ∈ dot_S2048x512_S512x256_S2048x256_1_0_0_1_n_n.lhsNonContracting by decide)]
      rfl)
    (fun i q => dot_S2048x512_S512x256_S2048x256_1_0_0_1_n_n.lhsIdx_val_of_single rfl i q)
    (fun i q => dot_S2048x512_S512x256_S2048x256_1_0_0_1_n_n.rhsIdx_val_of_single rfl i q)
    (fun i q => by
      unfold DotDims.rhsIdx
      rw [dif_neg (show ¬(1 : Fin S512x256.rank) ∈ dot_S2048x512_S512x256_S2048x256_1_0_0_1_n_n.rhsBatch by decide),
        dif_pos (show (1 : Fin S512x256.rank) ∈ dot_S2048x512_S512x256_S2048x256_1_0_0_1_n_n.rhsNonContracting by decide)]
      rfl)
    none l r p c

/-! ## The two row reductions, at a row -/

/-- Row `p` of a `[2048, 512]` array with `j` put back on the reduced axis is the index `(p, j)`. -/
theorem lift_col (h : S2048x512.Reduces [1] S2048) (p : Fin 2048) (j : Fin 512) : h.lift (ix1 p) j = ix2 p j := by
  funext a; apply Fin.ext
  match a with
  | ⟨0, _⟩ => rfl
  | ⟨1, _⟩ => rfl

/-- The lane maximum from −∞ of row `p`: the row's maximum. -/
theorem lane_max (s : FVec Ideal S2048x512 .f32) (h : S2048x512.Reduces [1] S2048) (hφ : FKind.Formats .f32)
    (hacc : (0xFF800000#32 : BitVec 32) = FKind.maximumf.neutral .f32 hφ) (p : Fin 2048) :
    multiReduction (F := Ideal) .maximumf [1] S2048 s 0xFF800000#32 h hφ hacc (ix1 p) = rowMax (fun j => s (ix2 p j)) := by
  refine (Ideal.multiReduction_maximumf_single s 0xFF800000#32 h hφ hacc (ix1 p)).trans ?_
  have hf : (s ∘ h.lift (ix1 p)) = fun j : Fin 512 => s (ix2 p j) := funext fun (j : Fin 512) => congrArg s (lift_col h p j)
  rw [hf]
  rfl

/-- The lane sum from zero of row `p`: the row's sum. -/
theorem lane_sum (s : FVec Ideal S2048x512 .f32) (h : S2048x512.Reduces [1] S2048) (hφ : FKind.Formats .f32)
    (hacc : (0x00000000#32 : BitVec 32) = FKind.add.neutral .f32 hφ) (p : Fin 2048) :
    multiReduction (F := Ideal) .add [1] S2048 s 0x00000000#32 h hφ hacc (ix1 p) = ∑ j : Fin 512, s (ix2 p j) := by
  refine (Ideal.multiReduction_add_single s 0x00000000#32 h hφ hacc (ix1 p)).trans ?_
  exact Finset.sum_congr rfl fun (j : Fin 512) _ => congrArg s (lift_col h p j)

/-! ## The body's stages -/

variable (x0 : FVec Ideal S1x2048x1024 .f32) (x1 : FVec Ideal S1024x256 .bf16) (x2 : FVec Ideal S256x512 .f32) (x3 : FVec Ideal S512x256 .bf16)

/-- The keys of the block's rows. -/
def keys : FVec Ideal S2048x256 .f32 :=
  matmul dot_S2048x1024_S1024x256_S2048x256_1_0_0_1_n_n none
    (truncf .bf16 (shapeCast S2048x1024 x0 shapeCasts_S1x2048x1024_S2048x1024) bitsLt_bf16_f32)
    (shapeCast S1024x256 x1 shapeCasts_S1024x256_S1024x256) (constant S2048x256 .f32 0x00000000#32)

/-- Their scores against the binding vectors. -/
def scores : FVec Ideal S2048x512 .f32 :=
  matmul dot_S2048x256_S256x512_S2048x512_1_0_0_1_n_n (some .fp32) (keys x0 x1)
    (shapeCast S256x512 x2 shapeCasts_S256x512_S256x512) (constant S2048x512 .f32 0x00000000#32)

/-- Each row's maximum score. -/
def maxes : FVec Ideal S2048 .f32 :=
  multiReduction .maximumf [1] S2048 (scores x0 x1 x2) 0xFF800000#32 reduces_S2048x512_S2048 (.inl rfl) rfl

/-- The scores shifted by their row's maximum, exponentiated. -/
def exps : FVec Ideal S2048x512 .f32 :=
  exp (subf (scores x0 x1 x2)
    (broadcastTo S2048x512 (shapeCast S2048x1 (maxes x0 x1 x2) shapeCasts_S2048_S2048x1) broadcasts_S2048x1_S2048x512))

/-- Each row's sum of those. -/
def sums : FVec Ideal S2048 .f32 :=
  multiReduction .add [1] S2048 (exps x0 x1 x2) 0x00000000#32 reduces_S2048x512_S2048 (.inl rfl) rfl

/-- The softmax weights. -/
def weights : FVec Ideal S2048x512 .f32 :=
  divf (exps x0 x1 x2)
    (broadcastTo S2048x512 (shapeCast S2048x1 (sums x0 x1 x2) shapeCasts_S2048_S2048x1) broadcasts_S2048x1_S2048x512)

/-- The body's stored value is the last stage: the weights times the symbols, with a leading unit axis. -/
theorem pay_eq : k0_pay1 (F := Ideal) x0 x1 x2 x3
    = shapeCast S1x2048x256
        (matmul dot_S2048x512_S512x256_S2048x256_1_0_0_1_n_n none (truncf .bf16 (weights x0 x1 x2) bitsLt_bf16_f32)
          (shapeCast S512x256 x3 shapeCasts_S512x256_S512x256) (constant S2048x256 .f32 0x00000000#32))
        shapeCasts_S2048x256_S1x2048x256 := rfl

/-- Row `p` of the block, as a row of 1024 inputs. -/
abbrev rowOf (p : Fin 2048) : Fin 1024 → EReal := fun d => x0 (ix3 (0 : Fin 1) p d)

/-- The transposed binding table as the body holds it, curried. -/
abbrev tableOf : Fin 256 → Fin 512 → EReal := fun k j => x2 (ix2 k j)

theorem keys_at (p : Fin 2048) (k : Fin 256) : keys x0 x1 (ix2 p k) = keyRow (rowOf x0 p) x1 k := by
  unfold keys
  refine (keys_dot _ _ p k).trans ?_
  unfold keyRow
  refine Finset.sum_congr rfl fun d _ => ?_
  rw [truncf_apply, shapeCast_1ab_ab_apply, shapeCast_self]

theorem scores_at (p : Fin 2048) (j : Fin 512) : scores x0 x1 x2 (ix2 p j) = scoreRow (rowOf x0 p) x1 (tableOf x2) j := by
  unfold scores
  refine (scores_dot _ _ _ p j).trans ?_
  unfold scoreRow
  refine Finset.sum_congr rfl fun k _ => ?_
  rw [keys_at, shapeCast_self]

theorem maxes_at (p : Fin 2048) : maxes x0 x1 x2 (ix1 p) = rowMax (scoreRow (rowOf x0 p) x1 (tableOf x2)) := by
  unfold maxes
  refine (lane_max _ _ _ _ p).trans ?_
  exact congrArg rowMax (funext fun j => scores_at x0 x1 x2 p j)

theorem exps_at (p : Fin 2048) (j : Fin 512) : exps x0 x1 x2 (ix2 p j) = expShift (scoreRow (rowOf x0 p) x1 (tableOf x2)) j := by
  unfold exps
  show Ideal.exp (scores x0 x1 x2 (ix2 p j)
    - broadcastTo S2048x512 (shapeCast S2048x1 (maxes x0 x1 x2) shapeCasts_S2048_S2048x1) broadcasts_S2048x1_S2048x512 (ix2 p j)) = _
  rw [broadcastTo_a1_ab_apply, shapeCast_a_a1_apply, maxes_at, scores_at]
  rfl

theorem sums_at (p : Fin 2048) : sums x0 x1 x2 (ix1 p) = ∑ j : Fin 512, expShift (scoreRow (rowOf x0 p) x1 (tableOf x2)) j := by
  unfold sums
  refine (lane_sum _ _ _ _ p).trans ?_
  exact Finset.sum_congr rfl fun j _ => exps_at x0 x1 x2 p j

theorem weights_at (p : Fin 2048) (j : Fin 512) : weights x0 x1 x2 (ix2 p j) = weight (scoreRow (rowOf x0 p) x1 (tableOf x2)) j := by
  unfold weights
  show Ideal.div (exps x0 x1 x2 (ix2 p j))
    (broadcastTo S2048x512 (shapeCast S2048x1 (sums x0 x1 x2) shapeCasts_S2048_S2048x1) broadcasts_S2048x1_S2048x512 (ix2 p j)) = _
  rw [broadcastTo_a1_ab_apply, shapeCast_a_a1_apply, sums_at, exps_at]
  rfl

/-- THE BODY'S VALUE at `(u, p, c)`: entry `c` of the result of row `p` of the block. -/
theorem pay_at (u : Fin 1) (p : Fin 2048) (c : Fin 256) :
    k0_pay1 (F := Ideal) x0 x1 x2 x3 (ix3 u p c) = retrievedRow (rowOf x0 p) x1 (tableOf x2) x3 c := by
  rw [pay_eq, shapeCast_ab_1ab_apply]
  refine (symbols_dot _ _ p c).trans ?_
  unfold retrievedRow
  refine Finset.sum_congr rfl fun j _ => ?_
  rw [truncf_apply, weights_at, shapeCast_self]

end Cert.KernelIdeal.BodyRows

end
-- ==== Proof.Tiles.lean ====
/-
  From blocks to the whole array.

  The grid has 16 points; point `t` works on batch `t / 4`, rows `2048 · (t % 4) … 2048 · (t % 4) + 2047`: its input block is
  those rows of the input array, its output block the same rows of the result, and the three small operands are read whole at
  every point. Two of them the host wrote before the region by a change of float format, which is the identity on the extended
  reals, and the third by a transpose of the binding table. So what point `t` writes back is block `t` of ONE function of the
  argument arrays, `Cert.Retrieval.retrieved`; the 16 blocks tile the result array (row `r` of batch `b` is in the block of
  point `4 b + r / 2048`), so the array ends holding that function.
-/
import proofs.«153779_j69956427317858_2_alg».proof.Proof.Gen.KernelIdeal.Value
import proofs.«153779_j69956427317858_2_alg».proof.Proof.BodyRows
import proofs.«153779_j69956427317858_2_alg».proof.Proof.Retrieval
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Tiles

open Cert.KernelIdeal Cert.KernelIdeal.Gen Cert.KernelIdeal.BodyRows Cert.Retrieval
open Idealize.ShloMosaic Idealize.ShloMosaic.TcCoe Idealize.SL.Sem Idealize.ShloMosaic.ValueIdx Idealize.ShloMosaic.StableHlo
open Idealize.ShloMosaic.Pipeline (Dat)

/-! ## One entry of one block -/

/-- If a block's rows are rows of the input array, its projection and symbol operands the arrays themselves and its table
    operand the binding table transposed, then the body's value at an entry of the block is `retrieved` at the array index
    with the same row and the same column. -/
theorem block_entry (X : (⟨3, ![4, 8192, 1024]⟩ : Shape).Idx → EReal) (W : (⟨2, ![1024, 256]⟩ : Shape).Idx → EReal)
    (B Sym : (⟨2, ![512, 256]⟩ : Shape).Idx → EReal)
    (x0 : FVec Ideal S1x2048x1024 .f32) (x1 : FVec Ideal S1024x256 .bf16) (x2 : FVec Ideal S256x512 .f32) (x3 : FVec Ideal S512x256 .bf16)
    (y : S1x2048x256.Idx) (i : S4x8192x256.Idx)
    (h0 : ∀ d : Fin 1024, x0 (ix3 (0 : Fin 1) (y 1) d) = X (ix3 (i 0) (i 1) d))
    (h1 : x1 = W) (h2 : ∀ (k : Fin 256) (j : Fin 512), x2 (ix2 k j) = B (ix2 j k)) (h3 : x3 = Sym)
    (h4 : (y 2).val = (i 2).val) :
    k0_pay1 (F := Ideal) x0 x1 x2 x3 y = retrieved X W B Sym i := by
  obtain ⟨u, p, c, rfl⟩ : ∃ (u : Fin 1) (p : Fin 2048) (c : Fin 256), y = ix3 u p c := ⟨y 0, y 1, y 2, eq_ix3 y⟩
  obtain ⟨b, r, c', rfl⟩ : ∃ (b : Fin 4) (r : Fin 8192) (c' : Fin 256), i = ix3 b r c' := ⟨i 0, i 1, i 2, eq_ix3 i⟩
  have hc : c = c' := Fin.ext h4
  subst hc h1 h3
  have hrow : rowOf x0 p = fun d => X (ix3 b r d) := funext fun d => h0 d
  have htab : tableOf x2 = fun k j => B (ix2 j k) := funext fun k => funext fun j => h2 k j
  rw [pay_at, retrieved_ix3, hrow, htab]

/-! ## The region's operands -/

variable (m : (ℓ : Loc nD τ sig) → Buf (Elt Ideal) ℓ) (ρ : Dev nD → PrngReg)

/-- The projection operand as the region finds it is the projection argument. -/
theorem V_proj (c : Dev nD) : (V m c main_v0 : S1024x256.Idx → EReal) = m ((c : Thread nD τ).loc main_arg1) := by
  dsimp only [Gen.V, Gen.hostOps0]; after_results; rfl

/-- The table operand as the region finds it is the binding argument transposed. -/
theorem V_table (c : Dev nD) : (V m c main_v1 : S256x512.Idx → EReal)
    = transpose S256x512 [1, 0] (m ((c : Thread nD τ).loc main_arg2)) transposes_S512x256_S256x512_1_0 := by
  dsimp only [Gen.V, Gen.hostOps0]; after_results

/-- The symbol operand as the region finds it is the symbol argument. -/
theorem V_syms (c : Dev nD) : (V m c main_v2 : S512x256.Idx → EReal) = m ((c : Thread nD τ).loc main_arg3) := by
  dsimp only [Gen.V, Gen.hostOps0]; after_results; rfl

/-! ## The index maps, over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- The input and output blocks of point `t` are block `(t / 4, t % 4, 0)`; the small operands' block is `(0, 0)`. -/
theorem block_indices : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0 :=
  (by decide +kernel : ∀ t : Fin grid0.N, _)

/-! ## The blocks, read off the arrays -/

/-- Row `p` of point `t`'s input block is row `2048 · (t % 4) + p` of batch `t / 4` of the input argument. -/
theorem in_block (c : Dev nD) (t : Fin cfg0.N) (z : S1x2048x1024.Idx) (k : S4x8192x1024.Idx)
    (hk0 : (k 0).val = t.val / 4) (hk1 : (k 1).val = t.val % 4 * 2048 + (z 1).val) (hk2 : (k 2).val = (z 2).val) :
    (iblk m c 0 t : Vec Ideal S1x2048x1024 .f32) z = (m ((c : Thread nD τ).loc main_arg0) : S4x8192x1024.Idx → EReal) k := by
  obtain ⟨e0, e1, e2, -⟩ := block_indices t
  have hz0 : (z 0).val = 0 := by have : (z 0).val < 1 := (z 0).isLt; omega
  unfold iblk
  rw [View.read_apply]
  show V m c main_arg0 _ = m ((c : Thread nD τ).loc main_arg0) _
  rw [V_main_arg0]
  refine congrArg _ (funext fun a => Fin.ext ?_)
  match a with
  | ⟨0, _⟩ => show win0_0.index t (0 : Fin 3) * 1 + 1 * (z 0).val = (k 0).val; omega
  | ⟨1, _⟩ => show win0_0.index t (1 : Fin 3) * 2048 + 1 * (z 1).val = (k 1).val; omega
  | ⟨2, _⟩ => show win0_0.index t (2 : Fin 3) * 1024 + 1 * (z 2).val = (k 2).val; omega

/-- The projection block at every point is the projection argument. -/
theorem proj_block (c : Dev nD) (t : Fin cfg0.N) :
    (iblk m c 1 t : Vec Ideal S1024x256 .bf16) = (m ((c : Thread nD τ).loc main_arg1) : S1024x256.Idx → EReal) := by
  obtain ⟨-, -, -, e0, e1, -⟩ := block_indices t
  funext z
  unfold iblk
  rw [View.read_apply]
  show (V m c main_v0 : S1024x256.Idx → EReal) _ = _
  rw [V_proj]
  refine congrArg _ (funext fun a => Fin.ext ?_)
  match a with
  | ⟨0, _⟩ => show win0_1.index t (0 : Fin 2) * 1024 + 1 * (z 0).val = (z 0).val; omega
  | ⟨1, _⟩ => show win0_1.index t (1 : Fin 2) * 256 + 1 * (z 1).val = (z 1).val; omega

/-- The table block at every point, at `(k, j)`, is the binding argument at `(j, k)`. -/
theorem table_block (c : Dev nD) (t : Fin cfg0.N) (k : Fin 256) (j : Fin 512) :
    (iblk m c 2 t : Vec Ideal S256x512 .f32) (ix2 k j) = (m ((c : Thread nD τ).loc main_arg2) : S512x256.Idx → EReal) (ix2 j k) := by
  obtain ⟨-, -, -, -, -, e0, e1, -⟩ := block_indices t
  unfold iblk
  rw [View.read_apply]
  show (V m c main_v1 : S256x512.Idx → EReal) _ = _
  rw [V_table]
  refine Eq.trans (congrArg _ (funext fun a => Fin.ext ?_)) (transpose_ix2_apply _ _ k j)
  match a with
  | ⟨0, _⟩ => show win0_2.index t (0 : Fin 2) * 256 + 1 * k.val = k.val; omega
  | ⟨1, _⟩ => show win0_2.index t (1 : Fin 2) * 512 + 1 * j.val = j.val; omega

/-- The symbol block at every point is the symbol argument. -/
theorem syms_block (c : Dev nD) (t : Fin cfg0.N) :
    (iblk m c 3 t : Vec Ideal S512x256 .bf16) = (m ((c : Thread nD τ).loc main_arg3) : S512x256.Idx → EReal) := by
  obtain ⟨-, -, -, -, -, -, -, e0, e1, -⟩ := block_indices t
  funext z
  unfold iblk
  rw [View.read_apply]
  show (V m c main_v2 : S512x256.Idx → EReal) _ = _
  rw [V_syms]
  refine congrArg _ (funext fun a => Fin.ext ?_)
  match a with
  | ⟨0, _⟩ => show win0_3.index t (0 : Fin 2) * 512 + 1 * (z 0).val = (z 0).val; omega
  | ⟨1, _⟩ => show win0_3.index t (1 : Fin 2) * 256 + 1 * (z 1).val = (z 1).val; omega

/-! ## What a point writes back, and the whole array -/

/-- The result as a function of the launch memory's argument arrays. -/
abbrev result (c : Dev nD) : S4x8192x256.Idx → EReal :=
  retrieved (m ((c : Thread nD τ).loc main_arg0)) (m ((c : Thread nD τ).loc main_arg1))
    (m ((c : Thread nD τ).loc main_arg2)) (m ((c : Thread nD τ).loc main_arg3))

/-- WHAT POINT `t` WRITES BACK is block `t` of `result`. -/
theorem flushed_eq (c : Dev nD) (t : Fin cfg0.N) :
    (dats m 0 c).flushed 4 t = ((cfg0.win 4).blk t).view.read (Elt Ideal) (result m c) := by
  obtain ⟨-, -, -, -, -, -, -, -, -, e0, e1, e2⟩ := block_indices t
  rw [Value.flushed4]
  unfold out0_4
  rw [View.canon_unit_zero hz3]
  simp only [View.ld_unit_zero (S := S1x2048x1024) hz3, View.ld_unit_zero (S := S1024x256) hz2,
    View.ld_unit_zero (S := S256x512) hz2, View.ld_unit_zero (S := S512x256) hz2]
  funext y
  show k0_pay1 (F := Ideal) (iblk m c 0 t) (iblk m c 1 t) (iblk m c 2 t) (iblk m c 3 t) y
    = result m c (((cfg0.win 4).blk t).view.emb y)
  have hy0 : (y 0).val = 0 := by have : (y 0).val < 1 := (y 0).isLt; omega
  refine block_entry _ _ _ _ _ _ _ _ y _ (fun d => ?_) (proj_block m c t) (fun k j => table_block m c t k j) (syms_block m c t) ?_
  · refine in_block m c t _ _ ?_ ?_ rfl
    · show win0_4.index t (0 : Fin 3) * 1 + 1 * (y 0).val = t.val / 4; omega
    · show win0_4.index t (1 : Fin 3) * 2048 + 1 * (y 1).val = t.val % 4 * 2048 + (y 1).val; omega
  · show (y 2).val = win0_4.index t (2 : Fin 3) * 256 + 1 * (y 2).val; omega

/-- An index of the array is in point `t`'s block iff each coordinate is in the block's range on its axis. -/
theorem mem_blk (t : Fin cfg0.N) (i : S4x8192x256.Idx) :
    i ∈ ((cfg0.win 4).blk t).view.set ↔ ∀ a : Fin 3, win0_4.index t a * S1x2048x256.size a ≤ (i a).val
      ∧ (i a).val < win0_4.index t a * S1x2048x256.size a + S1x2048x256.size a := by
  show i ∈ ((View.whole main_v3).slice (win0_4.rect t)).set ↔ _
  rw [View.set_slice_whole, Rect.mem_set_unit]
  exact Iff.rfl

/-- Every index of the result array is in the block of the point of its batch and row tile. -/
theorem cover (i : S4x8192x256.Idx) :
    ∃ t : Fin cfg0.N, (cfg0.win 4).flush t = true ∧ i ∈ ((cfg0.win 4).blk t).view.set := by
  have hi0 : (i 0).val < 4 := (i 0).isLt
  have hi1 : (i 1).val < 8192 := (i 1).isLt
  have hi2 : (i 2).val < 256 := (i 2).isLt
  have hN : cfg0.N = 16 := N_0
  have ht : (i 0).val * 4 + (i 1).val / 2048 < cfg0.N := by rw [hN]; omega
  obtain ⟨-, -, -, -, -, -, -, -, -, e0, e1, e2⟩ := block_indices ⟨(i 0).val * 4 + (i 1).val / 2048, ht⟩
  refine ⟨⟨(i 0).val * 4 + (i 1).val / 2048, ht⟩, flush0_4 _, ?_⟩
  rw [mem_blk]
  intro a
  match a with
  | ⟨0, _⟩ =>
    show win0_4.index ⟨(i 0).val * 4 + (i 1).val / 2048, ht⟩ (0 : Fin 3) * 1 ≤ (i 0).val
      ∧ (i 0).val < win0_4.index ⟨(i 0).val * 4 + (i 1).val / 2048, ht⟩ (0 : Fin 3) * 1 + 1
    simp only [] at e0; omega
  | ⟨1, _⟩ =>
    show win0_4.index ⟨(i 0).val * 4 + (i 1).val / 2048, ht⟩ (1 : Fin 3) * 2048 ≤ (i 1).val
      ∧ (i 1).val < win0_4.index ⟨(i 0).val * 4 + (i 1).val / 2048, ht⟩ (1 : Fin 3) * 2048 + 2048
    simp only [] at e1; omega
  | ⟨2, _⟩ =>
    show win0_4.index ⟨(i 0).val * 4 + (i 1).val / 2048, ht⟩ (2 : Fin 3) * 256 ≤ (i 2).val
      ∧ (i 2).val < win0_4.index ⟨(i 0).val * 4 + (i 1).val / 2048, ht⟩ (2 : Fin 3) * 256 + 256
    omega

/-- THE RESULT ARRAY after the run is `result`. -/
theorem final (c : Dev nD) : (dats m 0 c).arrAt 4 cfg0.N = result m c :=
  (dats m 0 c).arrAt_eq_of_cover 4 (result m c) (fun t _ => flushed_eq m c t) cover

/-- The kernel's run: the result array at `result`, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Tiles

end
-- ==== Proof.lean ====
/-
  Symbol retrieval: a kernel tiled over a grid of 16 points against its whole-array reference, on the extended reals.

  Both programs take an input array `[4, 8192, 1024]`, a projection `[1024, 256]`, a binding table `[512, 256]` and a symbol
  table `[512, 256]`, and compute, for every row `x` of the input array,

      key k    = ∑ d, x d · W (d, k)
      score j  = ∑ k, key k · binding (j, k)
      weight j = exp (score j − M) / ∑ j', exp (score j' − M),     M = max over j of score j (taken from −∞)
      out c    = ∑ j, weight j · symbols (j, c).

  The kernel does it 2048 rows at a time over a grid of 16 points, with the binding table transposed by the host beforehand
  and the operands of two of its three products changed to a narrower float format, which is the identity on the extended
  reals; the reference does it on the whole arrays, and takes one more maximum of `M` against −∞, which changes nothing. The
  sums are the same sums term by term, so no algebraic law and no finiteness of the inputs is used: the precondition is never
  opened.

  `Cert.Retrieval.retrieved` is that function of the four arrays (Proof/Retrieval.lean). The reference's run ends at it
  (Proof/RefRows.lean, over the generated run and its read-at-an-index lemmas); the kernel body's value at an entry of a block
  is it at the corresponding entry of the array (Proof/BodyRows.lean), and the 16 blocks tile the result (Proof/Tiles.lean,
  over the generated frame run). The three frames are the generated ones; the idealized kernel is the kernel's own text read
  on the extended reals, nothing rewritten, so `preserves` is `True`.
-/
import proofs.«153779_j69956427317858_2_alg».proof.Defs
import proofs.«153779_j69956427317858_2_alg».proof.Proof.Gen.Kernel
import proofs.«153779_j69956427317858_2_alg».proof.Proof.Gen.Kernel.Skeleton
import proofs.«153779_j69956427317858_2_alg».proof.Proof.Gen.Kernel.Launch
import proofs.«153779_j69956427317858_2_alg».proof.Proof.Gen.Kernel.Points
import proofs.«153779_j69956427317858_2_alg».proof.Proof.Gen.Kernel.Frame
import proofs.«153779_j69956427317858_2_alg».proof.Proof.Gen.KernelIdeal
import proofs.«153779_j69956427317858_2_alg».proof.Proof.Gen.KernelIdeal.Skeleton
import proofs.«153779_j69956427317858_2_alg».proof.Proof.Gen.KernelIdeal.Launch
import proofs.«153779_j69956427317858_2_alg».proof.Proof.Gen.KernelIdeal.Points
import proofs.«153779_j69956427317858_2_alg».proof.Proof.Gen.KernelIdeal.Frame
import proofs.«153779_j69956427317858_2_alg».proof.Proof.Gen.ReferenceIdeal
import proofs.«153779_j69956427317858_2_alg».proof.Proof.Gen.Pre_finite_inputs
import proofs.«153779_j69956427317858_2_alg».proof.Proof.Gen.KernelIdeal.Value
import proofs.«153779_j69956427317858_2_alg».proof.Proof.Gen.ReferenceIdeal.Run
import proofs.«153779_j69956427317858_2_alg».proof.Proof.Gen.ReferenceIdeal.Read
import proofs.«153779_j69956427317858_2_alg».proof.Proof.RefRows
import proofs.«153779_j69956427317858_2_alg».proof.Proof.Tiles
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization: there is nothing to preserve. -/
theorem preserves : Cert.preserves_Kernel_KernelIdeal := trivial

/-- From memories that agree on the four arguments, the kernel's result array and the reference's both end at
    `retrieved` of those arguments. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefRows.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
